-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S8192x512 : Shape := ⟨2, ![8192, 512]⟩
abbrev S512 : Shape := ⟨1, ![512]⟩
abbrev S1x512 : Shape := ⟨2, ![1, 512]⟩
abbrev S8192x8192 : Shape := ⟨2, ![8192, 8192]⟩
abbrev S512x512 : Shape := ⟨2, ![512, 512]⟩
abbrev S512x8192 : Shape := ⟨2, ![512, 8192]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S1x512, .f32⟩
  | .hbm, ⟨3, _⟩ => ⟨S8192x8192, .f32⟩
  | .local _ .vmem, ⟨0, _⟩ => ⟨S1x512, .f32⟩
  | .local _ .vmem, ⟨1, _⟩ => ⟨S512x512, .f32⟩
  | .local _ .vmem, ⟨2, _⟩ => ⟨S512x512, .f32⟩
  | .local _ .vmem, ⟨3, _⟩ => ⟨S8192x512, .f32⟩
  | .local _ .vmem, ⟨4, _⟩ => ⟨S512x8192, .f32⟩
  | .local _ .vmem, ⟨5, _⟩ => ⟨S512x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  inb_S8192x512_S8192x512_0_0 : ∀ a, (![0, 0] : Fin 2 → Nat) a + S8192x512.size a ≤ S8192x512.size a
  h_S8192x512 : 0 < S8192x512.numel
  broadcasts_S1x512_S512x512 : S1x512.Broadcasts S512x512
  inb_S512x8192_S512x8192_0_0 : ∀ a, (![0, 0] : Fin 2 → Nat) a + S512x8192.size a ≤ S512x8192.size a
  h_S512x8192 : 0 < S512x8192.numel
  dot_S512x512_S8192x512_S512x8192_1_1_0_0_n_n_wf : DotDims.WF S512x512 S8192x512 S512x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .f32 = 32 ∨ (Rect.block (s := S8192x512) S8192x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8192.size a ≤ S8192x8192.size a
  hwx0_3 : ∀ i : grid0.Coords, EltTy.bits .f32 = 32 ∨ (Rect.block (s := S8192x8192) S512x8192.size (cc0_transform_3 i) (hinb0_3 i)).WholeWords (EltTy.packing .f32)

variable [Facts₀]

def dot_S512x512_S8192x512_S512x8192_1_1_0_0_n_n : DotDims S512x512 S8192x512 S512x8192 where
  lhsContracting := [1]
  rhsContracting := [1]
  lhsNonContracting := [0]
  rhsNonContracting := [0]
  lhsBatch := []
  rhsBatch := []
  wf := dot_S512x512_S8192x512_S512x8192_1_1_0_0_n_n_wf

abbrev win0_0 : Pipeline.Window sig grid0 :=
  Pipeline.Window.ofSpec (Memref.whole main_v0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512 : Shape := ⟨1, ![512]⟩
abbrev S1x512 : Shape := ⟨2, ![1, 512]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.FrameBits.lean ====
/-
  The frame of the scoring kernel: every weakly fair execution of the program runs to the end without a fault and
  leaves its two argument arrays as it found them; and, as the run names what the result array holds, it is also
  the run the value claim is read off.

  The program reshapes the weight vector to one row and then launches one region over a grid of 16 points. Point
  `t` is handed four blocks: the weight row (the same at every point), rows `512 t … 512 t + 511` of the table,
  the WHOLE table (again the same at every point), and the block of rows `512 t … 512 t + 511` of the array of
  scores, which it overwrites in one store. So two of the region's windows read ONE array, the table: the region
  is entered holding the table once, whole, and each of the two windows is given half of that holding (reading
  needs no more); the result's window holds its array whole. This split of the table's holding in two is the one
  step here that a region with pairwise distinct arrays does not need.

  The body at a point loads its three input blocks, loads the output block once (the value is never used), and
  stores the product block. What the output block holds afterwards is therefore the one stored value, a function
  `outBlock` of the three input blocks; the input blocks are left in place. Nothing else is touched: the region has
  no scratch, no semaphore of its own and makes no use of the core's random-number generator.
  This module is stated for the program as printed, read at the word level; every statement in it holds for any
  reading of the floats, and only the frame is used of it.
-/
import proofs.«122891_j12232066859179_2_alg».proof.Proof.Gen.Kernel.Launch
import proofs.«122891_j12232066859179_2_alg».proof.Proof.Gen.Kernel.Skeleton
import proofs.«122891_j12232066859179_2_alg».proof.Proof.Gen.Kernel.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes neither argument: the region finds the table as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- and the weights as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as the body addresses it. -/
abbrev wholeRow : Rect S1x512 := Rect.unit (s := S1x512) ![0, 0] S1x512.size inb_S1x512_S1x512_0_0
abbrev wholeTile : Rect S512x512 := Rect.unit (s := S512x512) ![0, 0] S512x512.size inb_S512x512_S512x512_0_0
abbrev wholeTable : Rect S8192x512 := Rect.unit (s := S8192x512) ![0, 0] S8192x512.size inb_S8192x512_S8192x512_0_0
abbrev wholeOut : Rect S512x8192 := Rect.unit (s := S512x8192) ![0, 0] S512x8192.size inb_S512x8192_S512x8192_0_0

/-- What the output block holds after the body, from the three input blocks: its one store. -/
def outBlock (x0 : Vec F S1x512 .f32) (x1 : Vec F S512x512 .f32) (x2 : Vec F S8192x512 .f32) : Vec F S512x8192 .f32 :=
  View.canon [⟨wholeOut, k0_pay1 (View.ld x0 wholeRow) (View.ld x1 wholeTile) (View.ld x2 wholeTable)⟩]

/-- The one store covers the block. -/
theorem out_cover (p0 : Vec F S512x8192 .f32) (y : S512x8192.Idx) :
    ∃ pc ∈ ([⟨wholeOut, p0⟩] : List (View.Piece (Elt F) S512x8192 .f32)), y ∈ pc.1.set :=
  View.cover_of_tiled [⟨wholeOut, p0⟩] S512x8192.size (by rfl) y

/-! ## The body's triple -/

set_option maxHeartbeats 1000000 in
/-- The body on whole staging buffers, the inputs' at contents `x0 x1 x2` and the output's at anything, runs to the
    continuation holding the inputs' as they were and the output's at `outBlock` of them. -/
theorem sound_kernel (c : Dev nD) (E : Set ℕ) (i : grid0.Coords)
    (arg1 : Memref sig .tc .vmem S1x512 .f32) (harg1 : arg1.IsWhole) (arg2 : Memref sig .tc .vmem S512x512 .f32) (harg2 : arg2.IsWhole)
    (arg3 : Memref sig .tc .vmem S8192x512 .f32) (harg3 : arg3.IsWhole) (arg4 : Memref sig .tc .vmem S512x8192 .f32) (harg4 : arg4.IsWhole)
    (x0 : Vec F S1x512 .f32) (x1 : Vec F S512x512 .f32) (x2 : Vec F S8192x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__distmult_kernel i arg1 harg1 arg2 harg2 arg3 harg3 arg4 harg4) K := by
  simp only [cc0__distmult_kernel_eq_skeleton]; unfold cc0__distmult_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_cover _)

/-! ## The region's proof data -/

/-- The proof data of the region on core `c`: the arrays as the region finds them; after the body at point `t` each
    input's buffer at its block and the output's at `outBlock` of the three input blocks; the invariant the scoped
    buffers that are no staging buffer (there are none); nothing owed. The two windows on the table hold its two
    halves; the weight row, read by one window only, is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest spec0 c
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_row (c : Dev nD) (t : Fin cfg0.N) : (dats m 0 c).after 0 t = iblk m c 0 t := by dsimp only [dats]
theorem after_tile (c : Dev nD) (t : Fin cfg0.N) : (dats m 0 c).after 1 t = iblk m c 1 t := by dsimp only [dats]
theorem after_table (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

/-- Each input's current staging buffer holds its block at every point, fetched there or not: a buffer not fetched
    at a point was fetched at an earlier one with the same block index, and the body leaves it in place. -/
theorem before_row (c : Dev nD) (t : Fin cfg0.N) (d) : (dats m 0 c).before 0 t d = iblk m c 0 t :=
  ((dats m 0 c).before_in_eq_fetched 0 rfl (fun _ => rfl) (fun _ _ _ => rfl)
      (fun t => by rw [after_row]; unfold Dat.blockOf iblk; rw [A_eq]; try rfl) t d).trans
    (by unfold Dat.fetched Dat.blockOf iblk; rw [A_eq]; try rfl)
theorem before_tile (c : Dev nD) (t : Fin cfg0.N) (d) : (dats m 0 c).before 1 t d = iblk m c 1 t :=
  ((dats m 0 c).before_in_eq_fetched 1 rfl (fun _ => rfl) (fun _ _ _ => rfl)
      (fun t => by rw [after_tile]; unfold Dat.blockOf iblk; rw [A_eq]; try rfl) t d).trans
    (by unfold Dat.fetched Dat.blockOf iblk; rw [A_eq]; try rfl)
theorem before_table (c : Dev nD) (t : Fin cfg0.N) (d) : (dats m 0 c).before 2 t d = iblk m c 2 t :=
  ((dats m 0 c).before_in_eq_fetched 2 rfl (fun _ => rfl) (fun _ _ _ => rfl)
      (fun t => by rw [after_table]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row, before_tile, before_table]
  rw [show (dats m 0 c).Φ t.succ = (dats m 0 c).Φ t.castSucc from rfl,
    show (dats m 0 c).owesAt () t.succ = (dats m 0 c).owesAt () t.castSucc from rfl,
    after_row, after_tile, after_table, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The table's holding, split between its two windows -/

/-- The share each window holds its array at: the weight row whole, the two windows on the table its two halves,
    the result whole. -/
theorem share_row (c : Dev nD) : (dats m 0 c).share 0 = fullShare := rfl
theorem share_tile (c : Dev nD) : (dats m 0 c).share 1 = fullShare.left := rfl
theorem share_table (c : Dev nD) : (dats m 0 c).share 2 = fullShare.right := rfl
theorem share_out (c : Dev nD) : (dats m 0 c).share 3 = fullShare := rfl

/-- The region is entered holding the three buffers behind its four windows whole. The table's holding splits
    into its left and right halves, one for each of the two windows that read it; the other two windows take
    their buffers whole. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_arg0, main_v1] (by decide) (by decide), bigSep_W0]
  rw [(arr_whole0 0).set_eq_univ, (arr_whole0 1).set_eq_univ, (arr_whole0 3).set_eq_univ,
    share_row, share_tile, share_table, share_out]
  show iprop((((c : Thread nD τ).loc main_v0) ↦{fullShare} V m c main_v0) ∗ (((c : Thread nD τ).loc main_arg0) ↦{fullShare} V m c main_arg0)
      ∗ (((c : Thread nD τ).loc main_v1) ↦{fullShare} V m c main_v1)) ⊢ _
  iintro ⟨Hrow, Htab, Hout⟩
  ihave Hhalves := (pointsTo_share (PosShare.mem_left_op_right fullShare)).1 $$ Htab
  icases Hhalves with ⟨Hl, Hr⟩
  isplitl [Hrow]; · iexact Hrow
  isplitl [Hl]; · iexact Hl
  isplitl [Hr]; · iexact Hr
  iexact Hout

/-! ## The run and the frame -/

set_option backward.isDefEq.respectTransparency.types false in
/-- At the compiled mesh, for any values, from any memory with zero counters: every weakly fair execution of the
    program terminates, and every final state has each window's array at what the write-backs of the proof data
    leave there, and every other unscoped buffer (the weight vector) as the region found it. The region is launched
    with its windows' arrays NOT pairwise distinct: the table's holding is dealt to its two windows by
    `arrays_of_buffers`. The region keeps nothing of its own between points, so nothing but the scoped rest
    goes in and comes out. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Frame.run_main' depends on axioms: [propext, Classical.choice, Quot.sound] -/
#guard_msgs in #print axioms run_main

/-- The frame: the table is an input array of the region (read through either of its two windows, never written
    back), so it ends at its region-entry contents, which are its launch contents; the weight vector is no
    window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 1).trans (((dats m 0 c).arrAt_in 1 rfl _).trans ((A_eq m c 1).trans (V_main_arg0 m c))),
      ((h c).2 main_arg1 (Pipeline.mem_restRefs_of main_arg1 rfl (by decide))).trans (V_main_arg1 m c)⟩) (run_main m ρ)

end Cert.Kernel.Frame

end
-- ==== Proof.FrameIdeal.lean ====
/-
  The frame of the scoring kernel: every weakly fair execution of the program runs to the end without a fault and
  leaves its two argument arrays as it found them; and, as the run names what the result array holds, it is also
  the run the value claim is read off.

  The program reshapes the weight vector to one row and then launches one region over a grid of 16 points. Point
  `t` is handed four blocks: the weight row (the same at every point), rows `512 t … 512 t + 511` of the table,
  the WHOLE table (again the same at every point), and the block of rows `512 t … 512 t + 511` of the array of
  scores, which it overwrites in one store. So two of the region's windows read ONE array, the table: the region
  is entered holding the table once, whole, and each of the two windows is given half of that holding (reading
  needs no more); the result's window holds its array whole. This split of the table's holding in two is the one
  step here that a region with pairwise distinct arrays does not need.

  The body at a point loads its three input blocks, loads the output block once (the value is never used), and
  stores the product block. What the output block holds afterwards is therefore the one stored value, a function
  `outBlock` of the three input blocks; the input blocks are left in place. Nothing else is touched: the region has
  no scratch, no semaphore of its own and makes no use of the core's random-number generator.
  This module is stated for the idealized program; every statement in it holds for any reading of the floats.
-/
import proofs.«122891_j12232066859179_2_alg».proof.Proof.Gen.KernelIdeal.Launch
import proofs.«122891_j12232066859179_2_alg».proof.Proof.Gen.KernelIdeal.Skeleton
import proofs.«122891_j12232066859179_2_alg».proof.Proof.Gen.KernelIdeal.Points
import Idealize.ShloMosaic.Lib.Pipeline.FrameBody
import Idealize.ShloMosaic.Lib.Pipeline.Launch
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes neither argument: the region finds the table as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- and the weights as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging buffer, as the body addresses it. -/
abbrev wholeRow : Rect S1x512 := Rect.unit (s := S1x512) ![0, 0] S1x512.size inb_S1x512_S1x512_0_0
abbrev wholeTile : Rect S512x512 := Rect.unit (s := S512x512) ![0, 0] S512x512.size inb_S512x512_S512x512_0_0
abbrev wholeTable : Rect S8192x512 := Rect.unit (s := S8192x512) ![0, 0] S8192x512.size inb_S8192x512_S8192x512_0_0
abbrev wholeOut : Rect S512x8192 := Rect.unit (s := S512x8192) ![0, 0] S512x8192.size inb_S512x8192_S512x8192_0_0

/-- What the output block holds after the body, from the three input blocks: its one store. -/
def outBlock (x0 : Vec F S1x512 .f32) (x1 : Vec F S512x512 .f32) (x2 : Vec F S8192x512 .f32) : Vec F S512x8192 .f32 :=
  View.canon [⟨wholeOut, k0_pay1 (View.ld x0 wholeRow) (View.ld x1 wholeTile) (View.ld x2 wholeTable)⟩]

/-- The one store covers the block. -/
theorem out_cover (p0 : Vec F S512x8192 .f32) (y : S512x8192.Idx) :
    ∃ pc ∈ ([⟨wholeOut, p0⟩] : List (View.Piece (Elt F) S512x8192 .f32)), y ∈ pc.1.set :=
  View.cover_of_tiled [⟨wholeOut, p0⟩] S512x8192.size (by rfl) y

/-! ## The body's triple -/

set_option maxHeartbeats 1000000 in
/-- The body on whole staging buffers, the inputs' at contents `x0 x1 x2` and the output's at anything, runs to the
    continuation holding the inputs' as they were and the output's at `outBlock` of them. -/
theorem sound_kernel (c : Dev nD) (E : Set ℕ) (i : grid0.Coords)
    (arg1 : Memref sig .tc .vmem S1x512 .f32) (harg1 : arg1.IsWhole) (arg2 : Memref sig .tc .vmem S512x512 .f32) (harg2 : arg2.IsWhole)
    (arg3 : Memref sig .tc .vmem S8192x512 .f32) (harg3 : arg3.IsWhole) (arg4 : Memref sig .tc .vmem S512x8192 .f32) (harg4 : arg4.IsWhole)
    (x0 : Vec F S1x512 .f32) (x1 : Vec F S512x512 .f32) (x2 : Vec F S8192x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__distmult_kernel i arg1 harg1 arg2 harg2 arg3 harg3 arg4 harg4) K := by
  simp only [cc0__distmult_kernel_eq_skeleton]; unfold cc0__distmult_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (out_cover _)

/-! ## The region's proof data -/

/-- The proof data of the region on core `c`: the arrays as the region finds them; after the body at point `t` each
    input's buffer at its block and the output's at `outBlock` of the three input blocks; the invariant the scoped
    buffers that are no staging buffer (there are none); nothing owed. The two windows on the table hold its two
    halves; the weight row, read by one window only, is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest spec0 c
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after_row (c : Dev nD) (t : Fin cfg0.N) : (dats m 0 c).after 0 t = iblk m c 0 t := by dsimp only [dats]
theorem after_tile (c : Dev nD) (t : Fin cfg0.N) : (dats m 0 c).after 1 t = iblk m c 1 t := by dsimp only [dats]
theorem after_table (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

/-- Each input's current staging buffer holds its block at every point, fetched there or not: a buffer not fetched
    at a point was fetched at an earlier one with the same block index, and the body leaves it in place. -/
theorem before_row (c : Dev nD) (t : Fin cfg0.N) (d) : (dats m 0 c).before 0 t d = iblk m c 0 t :=
  ((dats m 0 c).before_in_eq_fetched 0 rfl (fun _ => rfl) (fun _ _ _ => rfl)
      (fun t => by rw [after_row]; unfold Dat.blockOf iblk; rw [A_eq]; try rfl) t d).trans
    (by unfold Dat.fetched Dat.blockOf iblk; rw [A_eq]; try rfl)
theorem before_tile (c : Dev nD) (t : Fin cfg0.N) (d) : (dats m 0 c).before 1 t d = iblk m c 1 t :=
  ((dats m 0 c).before_in_eq_fetched 1 rfl (fun _ => rfl) (fun _ _ _ => rfl)
      (fun t => by rw [after_tile]; unfold Dat.blockOf iblk; rw [A_eq]; try rfl) t d).trans
    (by unfold Dat.fetched Dat.blockOf iblk; rw [A_eq]; try rfl)
theorem before_table (c : Dev nD) (t : Fin cfg0.N) (d) : (dats m 0 c).before 2 t d = iblk m c 2 t :=
  ((dats m 0 c).before_in_eq_fetched 2 rfl (fun _ => rfl) (fun _ _ _ => rfl)
      (fun t => by rw [after_table]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row, before_tile, before_table]
  rw [show (dats m 0 c).Φ t.succ = (dats m 0 c).Φ t.castSucc from rfl,
    show (dats m 0 c).owesAt () t.succ = (dats m 0 c).owesAt () t.castSucc from rfl,
    after_row, after_tile, after_table, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The table's holding, split between its two windows -/

/-- The share each window holds its array at: the weight row whole, the two windows on the table its two halves,
    the result whole. -/
theorem share_row (c : Dev nD) : (dats m 0 c).share 0 = fullShare := rfl
theorem share_tile (c : Dev nD) : (dats m 0 c).share 1 = fullShare.left := rfl
theorem share_table (c : Dev nD) : (dats m 0 c).share 2 = fullShare.right := rfl
theorem share_out (c : Dev nD) : (dats m 0 c).share 3 = fullShare := rfl

/-- The region is entered holding the three buffers behind its four windows whole. The table's holding splits
    into its left and right halves, one for each of the two windows that read it; the other two windows take
    their buffers whole. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_arg0, main_v1] (by decide) (by decide), bigSep_W0]
  rw [(arr_whole0 0).set_eq_univ, (arr_whole0 1).set_eq_univ, (arr_whole0 3).set_eq_univ,
    share_row, share_tile, share_table, share_out]
  show iprop((((c : Thread nD τ).loc main_v0) ↦{fullShare} V m c main_v0) ∗ (((c : Thread nD τ).loc main_arg0) ↦{fullShare} V m c main_arg0)
      ∗ (((c : Thread nD τ).loc main_v1) ↦{fullShare} V m c main_v1)) ⊢ _
  iintro ⟨Hrow, Htab, Hout⟩
  ihave Hhalves := (pointsTo_share (PosShare.mem_left_op_right fullShare)).1 $$ Htab
  icases Hhalves with ⟨Hl, Hr⟩
  isplitl [Hrow]; · iexact Hrow
  isplitl [Hl]; · iexact Hl
  isplitl [Hr]; · iexact Hr
  iexact Hout

/-! ## The run and the frame -/

set_option backward.isDefEq.respectTransparency.types false in
/-- At the compiled mesh, for any values, from any memory with zero counters: every weakly fair execution of the
    program terminates, and every final state has each window's array at what the write-backs of the proof data
    leave there, and every other unscoped buffer (the weight vector) as the region found it. The region is launched
    with its windows' arrays NOT pairwise distinct: the table's holding is dealt to its two windows by
    `arrays_of_buffers`. The region keeps nothing of its own between points, so nothing but the scoped rest
    goes in and comes out. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none) (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Frame.run_main' depends on axioms: [propext, Classical.choice, Quot.sound] -/
#guard_msgs in #print axioms run_main

/-- The frame: the table is an input array of the region (read through either of its two windows, never written
    back), so it ends at its region-entry contents, which are its launch contents; the weight vector is no
    window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 1).trans (((dats m 0 c).arrAt_in 1 rfl _).trans ((A_eq m c 1).trans (V_main_arg0 m c))),
      ((h c).2 main_arg1 (Pipeline.mem_restRefs_of main_arg1 rfl (by decide))).trans (V_main_arg1 m c)⟩) (run_main m ρ)

end Cert.KernelIdeal.Frame

end
-- ==== Proof.Score.lean ====
/-
  The bilinear score of a table of rows against itself under a diagonal weight.

  For a table `x` of 8192 rows with 512 entries each and a weight vector `r` of 512 entries, the score of the
  pair of rows `(n, m)` is

      score x r (n, m) = ∑ k, (x[n, k] · r[k]) · x[m, k],

  a sum of 512 products on the extended reals: row `n` is first scaled entry by entry by the weights and then
  paired with row `m`. Nothing here mentions a program: the two programs of the certificate are each shown to
  compute this one function of their two argument arrays, so no law of the extended reals beyond reading both
  sums in the same order of `k` is needed, and in particular no finiteness of the entries.
-/
import Idealize.ShloMosaic.PureOps.Ideal
import Idealize.ShloMosaic.Lib.ValueIdx

noncomputable section

open scoped BigOperators

namespace Cert.Score

open Idealize.ShloMosaic Idealize.ShloMosaic.ValueIdx

/-- The table's shape: 8192 rows of 512 entries. -/
abbrev Table : Shape := ⟨2, ![8192, 512]⟩
/-- The weight vector's shape. -/
abbrev Weights : Shape := ⟨1, ![512]⟩
/-- The shape of the array of scores, one per ordered pair of rows. -/
abbrev Pairs : Shape := ⟨2, ![8192, 8192]⟩

/-- The score of rows `n` and `m`: row `n` scaled by the weights, paired with row `m`. -/
def scoreAt (x : FVec Ideal Table .f32) (r : FVec Ideal Weights .f32) (n m : Fin 8192) : EReal :=
  ∑ k : Fin 512, (x (ix2 n k) * r (ix1 k)) * x (ix2 m k)

/-- All the scores as one array: the entry at `(n, m)` is `scoreAt x r n m`. -/
def score (x : FVec Ideal Table .f32) (r : FVec Ideal Weights .f32) : FVec Ideal Pairs .f32 :=
  fun i => scoreAt x r (i 0) (i 1)

/-- The array of scores read at the index built from two coordinates. -/
theorem score_ix2 (x : FVec Ideal Table .f32) (r : FVec Ideal Weights .f32) (n m : Fin 8192) :
    score x r (ix2 n m) = scoreAt x r n m := rfl

end Cert.Score

end
-- ==== Proof.ReferenceScore.lean ====
/-
  The reference program computes the bilinear score, read one stage at a time.

  The reference has four stages. The weight vector `r` of 512 entries is first viewed as a single row
  `[1, 512]` (entry `(0, k)` is `r[k]`), and that row is then repeated down 8192 rows (entry `(n, k)` is again
  `r[k]`). The table `x` is multiplied entry by entry with this repeated row, giving the scaled table whose
  entry `(n, k)` is `x[n, k] · r[k]`. The last stage contracts the second axis of the scaled table against the
  second axis of `x` itself: its entry `(n, m)` is `∑ k, (x[n, k] · r[k]) · x[m, k]`.

  That last expression is the score of rows `n` and `m` word for word: the same 512 products, summed over the same
  index in the same order. So the proof only has to follow an index through the two repetitions, the product and
  the contraction; no law of the extended reals is used.
-/
import proofs.«122891_j12232066859179_2_alg».proof.Proof.Gen.ReferenceIdeal.Read
import proofs.«122891_j12232066859179_2_alg».proof.Proof.Score

noncomputable section

open scoped BigOperators

namespace Cert.Score.Reference

open Cert.ReferenceIdeal Cert.ReferenceIdeal.Read Idealize.ShloMosaic Idealize.ShloMosaic.ValueIdx

/-- The contraction reads its left operand, at output index `(n, m)` and summation index `k`, at row `n` and column `k`. -/
theorem lidx_eq (n m : Fin 8192) (k : Fin 512) : lidx_main_v3 (ix2 n m) k = ix2 n k :=
  funext fun a => Fin.ext (by match a with | ⟨0, _⟩ => rfl | ⟨1, _⟩ => rfl)

/-- The contraction reads its right operand at row `m` and column `k`. -/
theorem ridx_eq (n m : Fin 8192) (k : Fin 512) : ridx_main_v3 (ix2 n m) k = ix2 m k :=
  funext fun a => Fin.ext (by match a with | ⟨0, _⟩ => rfl | ⟨1, _⟩ => rfl)

/-- Through both repetitions, entry `(n, k)` of the repeated row is the weight vector's entry `k`. -/
theorem widx_eq (n : Fin 8192) (k : Fin 512) : idx_main_v0 (idx_main_v1 (ix2 n k)) = ix1 k :=
  funext fun a => Fin.ext (by match a with | ⟨0, _⟩ => rfl)

/-- The scaled table at `(n, k)` is `x[n, k] · r[k]`. -/
theorem scaled_apply (x0 : (⟨S8192x512, .f32⟩ : BufTy).Contents (Elt Ideal)) (x1 : (⟨S512, .f32⟩ : BufTy).Contents (Elt Ideal))
    (n : Fin 8192) (k : Fin 512) :
    val_main_v2 (F := Ideal) x0 x1 (ix2 n k) = x0 (ix2 n k) * x1 (ix1 k) := by
  rw [val_main_v2_apply, val_main_v1_apply, val_main_v0_apply, widx_eq]
  rfl

/-- The reference's last stage at `(n, m)` is the score of rows `n` and `m`. -/
theorem reference_ix2 (x0 : (⟨S8192x512, .f32⟩ : BufTy).Contents (Elt Ideal)) (x1 : (⟨S512, .f32⟩ : BufTy).Contents (Elt Ideal))
    (n m : Fin 8192) :
    val_main_v3 (F := Ideal) x0 x1 (ix2 n m) = Cert.Score.scoreAt x0 x1 n m := by
  rw [val_main_v3_apply]
  unfold Cert.Score.scoreAt
  refine Finset.sum_congr rfl fun k _ => ?_
  rw [lidx_eq, ridx_eq, scaled_apply]

/-- The reference's last stage is the array of scores. -/
theorem reference_eq (x0 : (⟨Cert.ReferenceIdeal.S8192x512, .f32⟩ : BufTy).Contents (Elt Ideal)) (x1 : (⟨Cert.ReferenceIdeal.S512, .f32⟩ : BufTy).Contents (Elt Ideal)) :
    Cert.ReferenceIdeal.Read.val_main_v3 (F := Ideal) x0 x1 = Cert.Score.score x0 x1 :=
  funext fun i => (congrArg (val_main_v3 (F := Ideal) x0 x1) (eq_ix2 i)).trans (reference_ix2 x0 x1 (i 0) (i 1))

end Cert.Score.Reference

end
-- ==== Proof.BlockScore.lean ====
/-
  One block's product, read at an index.

  The kernel body holds three loaded blocks: a single row `w` of 512 weights (shape `[1, 512]`), a block `a` of 512
  table rows (shape `[512, 512]`) and the whole table `b` (shape `[8192, 512]`). Its one computed value is built in
  four steps. The weight row is recast to its own shape, which changes nothing. It is then repeated down 512
  rows, so that entry `(p, k)` of the repeated block is `w[0, k]`. The block `a` is multiplied entry by entry with
  the repeated block, giving `a[p, k] · w[0, k]`. Last comes a matrix product that contracts the SECOND axis of
  both operands and accumulates into the zero array: its entry `(p, q)`, for `p` one of the 512 block rows and `q`
  one of the 8192 table rows, is

      ∑ k, (a[p, k] · w[0, k]) · b[q, k].

  The product's own summation index is a one-axis multi-index; it is exchanged for its single coordinate
  `k : Fin 512` through the bijection between the two, which leaves the sum unchanged. The operand indices of the
  product at output index `(p, q)` and summation index `k` are `(p, k)` on the left and `(q, k)` on the right.
-/
import proofs.«122891_j12232066859179_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Score.Block

open Cert.KernelIdeal Cert.KernelIdeal.Gen Idealize.ShloMosaic Idealize.ShloMosaic.ValueIdx

/-- The product's dimension numbers: both operands contract their second axis; the output's rows are the left
    operand's rows and its columns the right operand's rows. -/
abbrev dims : DotDims S512x512 S8192x512 S512x8192 := dot_S512x512_S8192x512_S512x8192_1_1_0_0_n_n

/-- The left operand is read at the output's row … -/
theorem lhs_row (i : S512x8192.Idx) (c : dims.contr.Idx) : (dims.lhsIdx i c 0).val = (i 0).val := by
  unfold DotDims.lhsIdx
  rw [dif_neg (show ¬(0 : Fin S512x512.rank) ∈ dims.lhsBatch by decide),
    dif_pos (show (0 : Fin S512x512.rank) ∈ dims.lhsNonContracting by decide)]
  rfl

/-- … and at the summation index's one coordinate. -/
theorem lhs_col (i : S512x8192.Idx) (c : dims.contr.Idx) : (dims.lhsIdx i c 1).val = (c ⟨0, by decide⟩).val :=
  dims.lhsIdx_val_of_single rfl i c

/-- The right operand is read at the row named by the output's column … -/
theorem rhs_row (i : S512x8192.Idx) (c : dims.contr.Idx) : (dims.rhsIdx i c 0).val = (i 1).val := by
  unfold DotDims.rhsIdx
  rw [dif_neg (show ¬(0 : Fin S8192x512.rank) ∈ dims.rhsBatch by decide),
    dif_pos (show (0 : Fin S8192x512.rank) ∈ dims.rhsNonContracting by decide)]
  rfl

/-- … and at the summation index's one coordinate. -/
theorem rhs_col (i : S512x8192.Idx) (c : dims.contr.Idx) : (dims.rhsIdx i c 1).val = (c ⟨0, by decide⟩).val :=
  dims.rhsIdx_val_of_single rfl i c

/-- The weight row, recast and repeated down 512 rows, read at `(p, k)`, is the row's entry `k`. -/
theorem repeated_apply (v0 : Vec Ideal S1x512 .f32) (p k : Fin 512) :
    broadcastTo S512x512 (shapeCast S1x512 v0 shapeCasts_S1x512_S1x512) broadcasts_S1x512_S512x512 (ix2 p k)
      = v0 (ix2 (0 : Fin 1) k) := by
  rw [shapeCast_self]
  exact broadcastTo_apply v0 broadcasts_S1x512_S512x512 (ix2 p k) (ix2 (0 : Fin 1) k) (fun a => match a with
    | ⟨0, _⟩ => by show 0 = if (1 : Nat) = 1 then 0 else p.val; rw [if_pos rfl]
    | ⟨1, _⟩ => by show k.val = if (512 : Nat) = 1 then 0 else k.val; rw [if_neg (by decide)])

/-- The block's payload at `(p, q)`: the weighted row `p` of the block paired with row `q` of the table. -/
theorem payload_apply (v0 : Vec Ideal S1x512 .f32) (v2 : Vec Ideal S512x512 .f32) (v3 : Vec Ideal S8192x512 .f32) (p : Fin 512) (q : Fin 8192) :
    k0_pay1 (F := Ideal) v0 v2 v3 (ix2 p q) = ∑ k : Fin 512, (v2 (ix2 p k) * v0 (ix2 (0 : Fin 1) k)) * v3 (ix2 q k) := by
  unfold k0_pay1
  refine (Ideal.matmul_constant_zero_apply dims (some .fp32) _ v3 (ix2 p q)).trans ?_
  rw [← Equiv.sum_comp (contrEquiv1 dims 512 rfl rfl).symm]
  refine Finset.sum_congr rfl fun k _ => ?_
  have hk := contrEquiv1_symm_val dims 512 rfl rfl k
  have el : dims.lhsIdx (ix2 p q) ((contrEquiv1 dims 512 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 512 rfl rfl).symm k) = ix2 q k := funext fun a => Fin.ext (by
    match a with
    | ⟨0, _⟩ => exact rhs_row _ _
    | ⟨1, _⟩ => exact (rhs_col _ _).trans hk)
  rw [el, er, mulf_apply, repeated_apply]

end Cert.Score.Block

end
-- ==== Proof.ScoreBlocks.lean ====
/-
  From the blocks each grid point writes to the whole array of scores.

  The region runs over 16 grid points. Point `t` overwrites rows `512 t … 512 t + 511` of the `[8192, 8192]` result
  with one block product of three blocks it was handed: the weights as one row (the weight vector reshaped, the
  same block at every point), rows `512 t … 512 t + 511` of the table, and the whole table (again the same block
  at every point). Neither argument array is written before the region, so those blocks are read off the arrays
  as launched.

  The block product at block index `(p, q)` is `∑ k, (a[p, k] · w[0, k]) · b[q, k]`. With `a[p, k]` the table's
  entry `(512 t + p, k)`, `w[0, k]` the weight `r[k]` and `b[q, k]` the table's entry `(q, k)`, this is the score of
  rows `512 t + p` and `q`; and `(512 t + p, q)` is exactly where block index `(p, q)` of point `t`'s block sits in
  the result. So every point writes its own block of ONE array, the array of scores. The 16 blocks of 512 rows
  cover all 8192 rows (row `r` belongs to point `r / 512`), so after the last point the result array is the array
  of scores everywhere.
-/
import proofs.«122891_j12232066859179_2_alg».proof.Proof.FrameIdeal
import proofs.«122891_j12232066859179_2_alg».proof.Proof.BlockScore
import proofs.«122891_j12232066859179_2_alg».proof.Proof.Score
import Idealize.ShloMosaic.Lib.Pipeline.Value
import Idealize.ShloMosaic.Lib.ValueIdx
import Idealize.ShloMosaic.Lib.ValueLayout

noncomputable section

open scoped BigOperators

namespace Cert.Score.Blocks

open Cert.KernelIdeal Cert.KernelIdeal.Gen Cert.KernelIdeal.Frame Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The zero offsets of a whole staging buffer, however they are spelt. -/
theorem zero_offsets : (![0, 0] : Fin 2 → Nat) = fun _ => 0 := funext fun a => by fin_cases a <;> rfl

/-- Where each block sits in its array, decided once over the 16 grid points: the weight row and the whole table are
    always the block at position `(0, 0)`; the block of table rows and the block of scores at point `t` are the
    blocks at position `(t, 0)`. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region finds the weights as one row: entry `(0, k)` of that row is entry `k` of the weight vector, since a
    reshape keeps every entry at its row-major position and both positions are `k`. -/
theorem weights_row (c : Dev nD) (k : Fin 512) :
    (V m c main_v0 : S1x512.Idx → EReal) (ix2 (0 : Fin 1) k) = (m ((c.tc : Thread nD τ).loc main_arg1) : S512.Idx → EReal) (ix1 k) := by
  have e : (V m c main_v0 : S1x512.Idx → EReal) = shapeCast S1x512 (m ((c.tc : Thread nD τ).loc main_arg1)) shapeCasts_S512_S1x512 := by
    dsimp only [V, hostOps0]; after_results; rfl
  rw [e]
  refine shapeCast_apply _ _ _ _ ?_
  show (S512.rowMajor (ix1 k)).val = (S1x512.rowMajor (ix2 (0 : Fin 1) k)).val
  rw [Shape.rowMajor_val_one, Shape.rowMajor_val_two]
  show k.val = 0 * 512 + k.val
  omega

/-- The weight-row block is the same at every point: its entry `(0, k)` is weight `k`. -/
theorem row_apply (c : Dev nD) (t : Fin cfg0.N) (k : Fin 512) :
    (iblk m c 0 t : Vec Ideal S1x512 .f32) (ix2 (0 : Fin 1) k) = (m ((c.tc : Thread nD τ).loc main_arg1) : S512.Idx → EReal) (ix1 k) := by
  obtain ⟨e0, e1, -⟩ := index_facts t
  unfold iblk
  rw [View.read_apply]
  show V m c main_v0 _ = _
  refine (congrArg (V m c main_v0) ?_).trans (weights_row m c k)
  funext a; apply Fin.ext
  match a with
  | ⟨0, _⟩ => show win0_0.index t 0 * 1 + 1 * 0 = 0; rw [e0]
  | ⟨1, _⟩ => show win0_0.index t 1 * 512 + 1 * k.val = k.val; rw [e1]; omega

/-- The block of table rows at point `t` holds rows `512 t … 512 t + 511`: its entry `(p, k)` is the table's entry
    `(n, k)` for `n = 512 t + p`. -/
theorem tile_apply (c : Dev nD) (t : Fin cfg0.N) (p k : Fin 512) (n : Fin 8192) (hn : n.val = 512 * t.val + p.val) :
    (iblk m c 1 t : Vec Ideal S512x512 .f32) (ix2 p k) = (m ((c.tc : Thread nD τ).loc main_arg0) : S8192x512.Idx → EReal) (ix2 n k) := by
  obtain ⟨-, -, e0, e1, -⟩ := index_facts t
  unfold iblk
  rw [View.read_apply]
  show V m c main_arg0 _ = _
  rw [V_main_arg0]
  refine congrArg (m ((c.tc : Thread nD τ).loc main_arg0)) ?_
  funext a; apply Fin.ext
  match a with
  | ⟨0, _⟩ => show win0_1.index t 0 * 512 + 1 * p.val = n.val; rw [e0, hn]; omega
  | ⟨1, _⟩ => show win0_1.index t 1 * 512 + 1 * k.val = k.val; rw [e1]; omega

/-- The whole-table block is the table, at every point. -/
theorem table_apply (c : Dev nD) (t : Fin cfg0.N) (q : Fin 8192) (k : Fin 512) :
    (iblk m c 2 t : Vec Ideal S8192x512 .f32) (ix2 q k) = (m ((c.tc : Thread nD τ).loc main_arg0) : S8192x512.Idx → EReal) (ix2 q k) := by
  obtain ⟨-, -, -, -, e0, e1, -⟩ := index_facts t
  unfold iblk
  rw [View.read_apply]
  show V m c main_arg0 _ = _
  rw [V_main_arg0]
  refine congrArg (m ((c.tc : Thread nD τ).loc main_arg0)) ?_
  funext a; apply Fin.ext
  match a with
  | ⟨0, _⟩ => show win0_2.index t 0 * 8192 + 1 * q.val = q.val; rw [e0]; omega
  | ⟨1, _⟩ => show win0_2.index t 1 * 512 + 1 * k.val = k.val; rw [e1]; omega

/-- A block product is a block of scores: when the first operand's row is the weights, row `p` of the second is
    row `n` of the table, and row `q` of the third is row `q` of the table, the product's entry `(p, q)` is the
    score of rows `n` and `q`. Stated over plain vectors, and only later used at a point's blocks. -/
theorem block_scores (x : FVec Ideal Cert.Score.Table .f32) (r : FVec Ideal Cert.Score.Weights .f32)
    (v0 : Vec Ideal S1x512 .f32) (v2 : Vec Ideal S512x512 .f32) (v3 : Vec Ideal S8192x512 .f32)
    (p : Fin 512) (q n : Fin 8192)
    (h0 : ∀ k : Fin 512, v0 (ix2 (0 : Fin 1) k) = r (ix1 k))
    (h2 : ∀ k : Fin 512, v2 (ix2 p k) = x (ix2 n k))
    (h3 : ∀ k : Fin 512, v3 (ix2 q k) = x (ix2 q k)) :
    k0_pay1 (F := Ideal) v0 v2 v3 (ix2 p q) = Cert.Score.scoreAt x r n q := by
  rw [Cert.Score.Block.payload_apply]
  unfold Cert.Score.scoreAt
  exact Finset.sum_congr rfl fun k _ => by rw [h0 k, h2 k, h3 k]

/-- What point `t` writes back is block `t` of the array of scores: the stored value at block index `(p, q)` is the
    block product there, hence the score of rows `512 t + p` and `q`, and `(512 t + p, q)` is where block index
    `(p, q)` of point `t`'s block sits in the result. -/
theorem flushed_eq (c : Dev nD) (t : Fin cfg0.N) :
    (dats (F := Ideal) m 0 c).flushed 3 t = ((cfg0.win 3).blk t).view.read (Elt Ideal)
      (Cert.Score.score (m ((c.tc : Thread nD τ).loc main_arg0)) (m ((c.tc : Thread nD τ).loc main_arg1))) := by
  show (cfg0.win 3).cut (grid0.coords t) ((dats m 0 c).after 3 t) = _
  rw [after_out]
  unfold outBlock
  rw [View.canon_unit_zero zero_offsets]
  simp only [View.ld_unit_zero (S := S1x512) zero_offsets, View.ld_unit_zero (S := S512x512) zero_offsets, View.ld_unit_zero (S := S8192x512) zero_offsets]
  funext y
  obtain ⟨-, -, -, -, -, -, e0, e1⟩ := index_facts t
  have ht : t.val < 16 := t.isLt
  have hy0 : (y 0).val < 512 := (y 0).isLt
  have hy1 : (y 1).val < 8192 := (y 1).isLt
  obtain ⟨p, hp⟩ : ∃ p : Fin 512, p.val = (y 0).val := ⟨⟨_, hy0⟩, rfl⟩
  obtain ⟨q, hq⟩ : ∃ q : Fin 8192, q.val = (y 1).val := ⟨⟨_, hy1⟩, rfl⟩
  obtain ⟨n, hn⟩ : ∃ n : Fin 8192, n.val = 512 * t.val + p.val := ⟨⟨512 * t.val + p.val, by have := p.isLt; omega⟩, rfl⟩
  have hy : (y : S512x8192.Idx) = ix2 p q := funext fun a => Fin.ext (by
    match a with
    | ⟨0, _⟩ => exact hp.symm
    | ⟨1, _⟩ => exact hq.symm)
  have hemb : (((cfg0.win 3).blk t).view.emb y : S8192x8192.Idx) = ix2 n q := by
    funext a; apply Fin.ext
    match a with
    | ⟨0, _⟩ => show win0_3.index t 0 * 512 + 1 * (y 0).val = n.val; rw [e0, hn, hp]; omega
    | ⟨1, _⟩ => show win0_3.index t 1 * 8192 + 1 * (y 1).val = q.val; rw [e1, hq]; omega
  have key := block_scores (m ((c.tc : Thread nD τ).loc main_arg0)) (m ((c.tc : Thread nD τ).loc main_arg1))
    (iblk m c 0 t) (iblk m c 1 t) (iblk m c 2 t) p q n (row_apply m c t) (fun k => tile_apply m c t p k n hn) (table_apply m c t q)
  show k0_pay1 (F := Ideal) (iblk m c 0 t) (iblk m c 1 t) (iblk m c 2 t) y
    = Cert.Score.score (m ((c.tc : Thread nD τ).loc main_arg0)) (m ((c.tc : Thread nD τ).loc main_arg1)) (((cfg0.win 3).blk t).view.emb y)
  exact (congrArg (k0_pay1 (F := Ideal) (iblk m c 0 t) (iblk m c 1 t) (iblk m c 2 t)) hy).trans
    (key.trans ((Cert.Score.score_ix2 _ _ n q).symm.trans (congrArg (Cert.Score.score _ _) hemb.symm)))

/-- An index of the result is in point `t`'s block exactly when each coordinate is in the block's range on its axis. -/
theorem mem_block (t : Fin cfg0.N) (i : S8192x8192.Idx) :
    i ∈ ((cfg0.win 3).blk t).view.set ↔ ∀ a : Fin 2, win0_3.index t a * S512x8192.size a ≤ (i a).val ∧ (i a).val < win0_3.index t a * S512x8192.size a + S512x8192.size a := by
  show i ∈ ((View.whole main_v1).slice (win0_3.rect t)).set ↔ _
  rw [View.set_slice_whole, Rect.mem_set_unit]
  exact Iff.rfl

/-- The 16 blocks of 512 rows cover the 8192 rows: row `r` of the result lies in the block of point `r / 512`, and
    every column lies in every block. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ : ∃ t : Fin cfg0.N, t.val = (i 0).val / 512 := ⟨⟨(i 0).val / 512, by show _ < 16; omega⟩, rfl⟩
  obtain ⟨-, -, -, -, -, -, e0, e1⟩ := index_facts t
  refine ⟨t, flush0_3 t, ?_⟩
  rw [mem_block]
  intro a
  match a with
  | ⟨0, _⟩ => show win0_3.index t 0 * 512 ≤ (i 0).val ∧ (i 0).val < win0_3.index t 0 * 512 + 512; rw [e0, ht]; omega
  | ⟨1, _⟩ => show win0_3.index t 1 * 8192 ≤ (i 1).val ∧ (i 1).val < win0_3.index t 1 * 8192 + 8192; rw [e1]; omega

/-- After the run the result array is the array of scores of the two argument arrays as launched. -/
theorem final_scores (m : (ℓ : Loc nD τ sig) → Buf (Elt Ideal) ℓ) (c : Dev nD) :
    (dats (F := Ideal) m 0 c).arrAt 3 cfg0.N = Cert.Score.score (m ((c.tc : Thread nD τ).loc main_arg0)) (m ((c.tc : Thread nD τ).loc main_arg1)) :=
  (dats (F := Ideal) m 0 c).arrAt_eq_of_cover 3 (Cert.Score.score (m ((c.tc : Thread nD τ).loc main_arg0)) (m ((c.tc : Thread nD τ).loc main_arg1)))
    (fun t _ => flushed_eq m c t) covered

end Cert.Score.Blocks

end
-- ==== Proof.lean ====
/-
  The certificate of the scoring kernel against its reference.

  Both programs take a table `x` of 8192 rows of 512 entries and a weight vector `r` of 512 entries and return the
  8192 × 8192 array of scores  score x r (n, m) = ∑ k, (x[n, k] · r[k]) · x[m, k].

  The kernel scales a block of 512 rows by the weights and multiplies it with the whole table, contracting the
  entry axis of both, one block of rows of the result per grid point; the reference scales the whole table and
  contracts it with the table in one product. On the extended reals both are the same sum over `k` of the same
  products in the same order, so the two results are equal entry by entry with no appeal to finiteness of the
  inputs: the precondition is never opened.

  The three frames: each kernel program runs to the end, faults nowhere and leaves the table and the weights as
  launched (the frame modules, where the table is handed to two windows of one region); the reference is a line of
  four host operations and its run is read back with its result named. The idealized kernel differs from the
  printed one by no rewrite, so there is nothing to preserve.
-/
import proofs.«122891_j12232066859179_2_alg».proof.Defs
import proofs.«122891_j12232066859179_2_alg».proof.Proof.Gen.Kernel
import proofs.«122891_j12232066859179_2_alg».proof.Proof.Gen.KernelIdeal
import proofs.«122891_j12232066859179_2_alg».proof.Proof.Gen.ReferenceIdeal
import proofs.«122891_j12232066859179_2_alg».proof.Proof.Gen.Pre_finite_inputs
import proofs.«122891_j12232066859179_2_alg».proof.Proof.Gen.ReferenceIdeal.Run
import proofs.«122891_j12232066859179_2_alg».proof.Proof.Gen.ReferenceIdeal.Read
import proofs.«122891_j12232066859179_2_alg».proof.Proof.FrameBits
import proofs.«122891_j12232066859179_2_alg».proof.Proof.FrameIdeal
import proofs.«122891_j12232066859179_2_alg».proof.Proof.ReferenceScore
import proofs.«122891_j12232066859179_2_alg».proof.Proof.ScoreBlocks
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Frame.frame m ρ

/-- So does the idealized kernel. -/
theorem frame_ideal : Cert.frame_KernelIdeal := fun m ρ _ => Cert.KernelIdeal.Frame.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Gen Cert.KernelIdeal.Frame in
/-- The idealized kernel's run with its result named: the array of scores of the launch contents of its two
    arguments, which it leaves unchanged. The result is the region's output array after the sixteen write-backs,
    which is the score array; the table is an input array of the region; the weights bypass it. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Score.score (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 3).trans (Cert.Score.Blocks.final_scores m c),
      ((h c).1 1).trans (((dats m 0 c).arrAt_in 1 rfl _).trans ((A_eq m c 1).trans (V_main_arg0 m c))),
      ((h c).2 main_arg1 (Pipeline.mem_restRefs_of main_arg1 rfl (by decide))).trans (V_main_arg1 m c)⟩) (run_main m ρ)

/-- From memories that agree on the arguments both programs end at the score array of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Score.Reference.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
